-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x2048x2048 : Shape := ⟨3, ![8, 2048, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S8x4096x2048 32) (main_arg1 : IVec S8x2048x2048 32) (main_arg2 : FVec F S2048 .f32) (main_arg3 : FVec F S2048 .f32) (main_arg4 : FVec F S2048 .f32) : IVec S_ 1 :=
  let main_v0 : FVec F S2048 .f32 := Host.absf main_arg2
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048 .f32 := Host.absf main_arg3
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x4096x2048 : Shape := ⟨3, ![8, 4096, 2048]⟩
abbrev S8x2048x2048 : Shape := ⟨3, ![8, 2048, 2048]⟩
abbrev S2048 : Shape := ⟨1, ![2048]⟩
abbrev S1x2048 : Shape := ⟨2, ![1, 2048]⟩
abbrev S1x512x2048 : Shape := ⟨3, ![1, 512, 2048]⟩
abbrev S1x2048x1024 : Shape := ⟨3, ![1, 2048, 1024]⟩
abbrev S1x1024 : Shape := ⟨2, ![1, 1024]⟩
abbrev S1x512x1024 : Shape := ⟨3, ![1, 512, 1024]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 10
  | .vmem => 11
  | .smem => 0
  | _ => 0

abbrev bufTy : (tb : Table) → Fin (tcTables nBuf tb) → BufTy
  | .hbm, ⟨0, _⟩ => ⟨S8x4096x2048, .i32⟩
  | .hbm, ⟨1, _⟩ => ⟨S8x2048x2048, .i32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8x4096x2048, .f32⟩
  | .local _ .vmem, ⟨0, _⟩ => ⟨S1x512x2048, .i32⟩
  | .local _ .vmem, ⟨1, _⟩ => ⟨S1x512x2048, .i32⟩
  | .local _ .vmem, ⟨2, _⟩ => ⟨S1x2048x1024, .i32⟩
  | .local _ .vmem, ⟨3, _⟩ => ⟨S1x2048x1024, .i32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S2048x1024, .bf16⟩
  | _, _ => ⟨S8x4096x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  shapeCasts_S2048_S1x2048 : S2048.ShapeCasts S1x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .i32 = 32 ∨ (Rect.block (s := S8x4096x2048) S1x512x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x2048.size a
  hwx0_1 : ∀ i : grid0.Coords, EltTy.bits .i32 = 32 ∨ (Rect.block (s := S8x2048x2048) S1x2048x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x2048.size a
  hwx0_3 : ∀ i : grid0.Coords, EltTy.bits .f32 = 32 ∨ (Rect.block (s := S1x2048) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x4096x2048.size a
  hwx0_4 : ∀ i : grid0.Coords, EltTy.bits .f32 = 32 ∨ (Rect.block (s := S8x4096x2048) S1x512x1024.size (cc0_transform_4 i) (hinb0_4 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S8x2048x2048 : Shape := ⟨3, ![8, 2048, 2048]⟩
abbrev S2048 : Shape := ⟨1, ![2048]⟩
abbrev S1x1x2048 : Shape := ⟨3, ![1, 1, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x4096x2048, .i32⟩
  | .hbm, ⟨1, _⟩ => ⟨S8x2048x2048, .i32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S8x4096x2048, .f32⟩
  | .hbm, ⟨6, _⟩ => ⟨S8x2048x2048, .f32⟩
  | .hbm, ⟨7, _⟩ => ⟨S8x4096x2048, .f32⟩
  | .hbm, ⟨8, _⟩ => ⟨S1x1x2048, .f32⟩
  | .hbm, ⟨9, _⟩ => ⟨S8x4096x2048, .f32⟩
  | .hbm, ⟨10, _⟩ => ⟨S8x4096x2048, .f32⟩
  | .hbm, ⟨11, _⟩ => ⟨S1x1x2048, .f32⟩
  | .hbm, ⟨12, _⟩ => ⟨S8x4096x2048, .f32⟩
  | .hbm, ⟨13, _⟩ => ⟨S8x4096x2048, .f32⟩
  | .hbm, ⟨14, _⟩ => ⟨S1x1x2048, .f32⟩
  | .hbm, ⟨15, _⟩ => ⟨S8x4096x2048, .f32⟩
  | .hbm, ⟨16, _⟩ => ⟨S8x4096x2048, .f32⟩
  | _, _ => ⟨S8x4096x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  dot_S8x4096x2048_S8x2048x2048_S8x4096x2048_2_1_1_2_0_0_wf : DotDims.WF S8x4096x2048 S8x2048x2048 S8x4096x2048 [2] [1] [1] [2] [0] [0]

variable [Facts₀]

def dot_S8x4096x2048_S8x2048x2048_S8x4096x2048_2_1_1_2_0_0 : DotDims S8x4096x2048 S8x2048x2048 S8x4096x2048 where
  lhsContracting := [2]
  rhsContracting := [1]
  lhsNonContracting := [1]
  rhsNonContracting := [2]
  lhsBatch := [0]
  rhsBatch := [0]
  wf := dot_S8x4096x2048_S8x2048x2048_S8x4096x2048_2_1_1_2_0_0_wf

class Facts : Prop extends Facts₀ where

variable [Facts]
-- ==== Proof.Spec.lean ====
/-
  The result both programs compute, as one function of the argument arrays over the extended reals.

  For a batch `b`, a row `r` and a column `n` the two integer tensors are contracted along their shared axis,
  `d = ∑ k, x1[b, r, k] · x2[b, k, n]` with every integer read as the real number it is. The kernel then forms
  `d · scale[n] + (bias[n] · scale[n] + offset[n])`, the reference `(d + bias[n]) · scale[n] + offset[n]`. The two agree
  whenever `bias[n]` and `scale[n]` are real numbers: `d` is a finite sum of products of reals, hence real, and on
  reals multiplication distributes over addition; the last addend `offset[n]` only takes part in an associativity
  step, which holds for every extended real.
-/
import Idealize.ShloMosaic.PureOps.Ideal
import Idealize.ShloMosaic.Lib.ValueIdx

noncomputable section

open scoped BigOperators

namespace Cert.Spec

open Idealize.ShloMosaic Idealize.ShloMosaic.ValueIdx

/-- The contraction of the two integer tensors at batch `b`, row `r`, column `n`, every entry read as a real. -/
def dot (x1 : (⟨3, ![8, 4096, 2048]⟩ : Shape).Idx → BitVec 32) (x2 : (⟨3, ![8, 2048, 2048]⟩ : Shape).Idx → BitVec 32)
    (b : Fin 8) (r : Fin 4096) (n : Fin 2048) : EReal :=
  ∑ k : Fin 2048, (((x1 (ix3 b r k)).toInt : ℝ) : EReal) * (((x2 (ix3 b k n)).toInt : ℝ) : EReal)

/-- The kernel's arrangement: the product scaled, plus the offset fused with the scaled bias. -/
def fused (x1 : (⟨3, ![8, 4096, 2048]⟩ : Shape).Idx → BitVec 32) (x2 : (⟨3, ![8, 2048, 2048]⟩ : Shape).Idx → BitVec 32)
    (scale offset bias : (⟨1, ![2048]⟩ : Shape).Idx → EReal) : (⟨3, ![8, 4096, 2048]⟩ : Shape).Idx → EReal :=
  fun i => dot x1 x2 (i 0) (i 1) (i 2) * scale (ix1 (i 2)) + (bias (ix1 (i 2)) * scale (ix1 (i 2)) + offset (ix1 (i 2)))

/-- The reference's arrangement: bias added first, then scale, then offset. -/
def plain (x1 : (⟨3, ![8, 4096, 2048]⟩ : Shape).Idx → BitVec 32) (x2 : (⟨3, ![8, 2048, 2048]⟩ : Shape).Idx → BitVec 32)
    (scale offset bias : (⟨1, ![2048]⟩ : Shape).Idx → EReal) : (⟨3, ![8, 4096, 2048]⟩ : Shape).Idx → EReal :=
  fun i => (dot x1 x2 (i 0) (i 1) (i 2) + bias (ix1 (i 2))) * scale (ix1 (i 2)) + offset (ix1 (i 2))

/-- A finite sum of products of reals, taken in the extended reals, is the real sum. -/
theorem sum_coe_mul {ι : Type} (s : Finset ι) (f g : ι → ℝ) :
    ∑ k ∈ s, ((f k : ℝ) : EReal) * ((g k : ℝ) : EReal) = ((∑ k ∈ s, f k * g k : ℝ) : EReal) := by
  classical
  induction s using Finset.induction_on with
  | empty => simp
  | insert a s ha ih => rw [Finset.sum_insert ha, Finset.sum_insert ha, ih, EReal.coe_add, EReal.coe_mul]

/-- The contraction is a real number. -/
theorem dot_real (x1 : (⟨3, ![8, 4096, 2048]⟩ : Shape).Idx → BitVec 32) (x2 : (⟨3, ![8, 2048, 2048]⟩ : Shape).Idx → BitVec 32)
    (b : Fin 8) (r : Fin 4096) (n : Fin 2048) : ∃ d : ℝ, dot x1 x2 b r n = (d : EReal) :=
  ⟨_, sum_coe_mul Finset.univ _ _⟩

/-- Distributing a real scale over a real sum, with any extended real added last. -/
theorem fuse_law (d b s : ℝ) (o : EReal) :
    ((d : EReal) + (b : EReal)) * (s : EReal) + o = (d : EReal) * (s : EReal) + ((b : EReal) * (s : EReal) + o) := by
  have h : ((d : EReal) + (b : EReal)) * (s : EReal) = (d : EReal) * (s : EReal) + (b : EReal) * (s : EReal) := by
    rw [← EReal.coe_add, ← EReal.coe_mul, ← EReal.coe_mul, ← EReal.coe_mul, ← EReal.coe_add, add_mul]
  rw [h, add_assoc]

/-- The two arrangements agree where scale and bias are real. -/
theorem plain_eq_fused (x1 : (⟨3, ![8, 4096, 2048]⟩ : Shape).Idx → BitVec 32) (x2 : (⟨3, ![8, 2048, 2048]⟩ : Shape).Idx → BitVec 32)
    (scale offset bias : (⟨1, ![2048]⟩ : Shape).Idx → EReal)
    (hs : ∀ j, ∃ s : ℝ, scale j = (s : EReal)) (hb : ∀ j, ∃ v : ℝ, bias j = (v : EReal)) :
    plain x1 x2 scale offset bias = fused x1 x2 scale offset bias := by
  funext i
  obtain ⟨d, hd⟩ := dot_real x1 x2 (i 0) (i 1) (i 2)
  obtain ⟨s, hs'⟩ := hs (ix1 (i 2))
  obtain ⟨v, hv⟩ := hb (ix1 (i 2))
  unfold plain fused
  rw [hd, hs', hv]
  exact fuse_law d v s _

end Cert.Spec

end
-- ==== Proof.RefSide.lean ====
/-
  The reference program's result, index by index, is the `plain` arrangement of the specification:
  at `(b, r, n)` its matrix product is the contraction of row `(b, r, ·)` of the first tensor with column `(b, ·, n)`
  of the second, every entry converted exactly, and each of the three vectors is read at `n` through its two
  broadcasts.
-/
import proofs.«167757_j22265110462493_2_alg».proof.Proof.Gen.ReferenceIdeal.Read
import proofs.«167757_j22265110462493_2_alg».proof.Proof.Spec

noncomputable section

namespace Cert.ReferenceIdeal.RefValue

open Cert.ReferenceIdeal Cert.ReferenceIdeal.Read Idealize.ShloMosaic Idealize.ShloMosaic.ValueIdx

/-- The left operand of the product is read at `(b, r, k)`. -/
theorem lidx_eq (i : S8x4096x2048.Idx) (k : Fin 2048) : lidx_main_v2 i k = ix3 (i 0) (i 1) k :=
  funext fun a => by match a with | ⟨0, _⟩ => rfl | ⟨1, _⟩ => rfl | ⟨2, _⟩ => rfl

/-- The right operand of the product is read at `(b, k, n)`. -/
theorem ridx_eq (i : S8x4096x2048.Idx) (k : Fin 2048) : ridx_main_v2 i k = ix3 (i 0) k (i 2) :=
  funext fun a => by match a with | ⟨0, _⟩ => rfl | ⟨1, _⟩ => rfl | ⟨2, _⟩ => rfl

/-- The bias vector, broadcast twice, is read at the column. -/
theorem bias_idx_eq (i : S8x4096x2048.Idx) : idx_main_v3 (idx_main_v4 i) = ix1 (i 2) :=
  funext fun a => by match a with | ⟨0, _⟩ => rfl

/-- The scale vector, broadcast twice, is read at the column. -/
theorem scale_idx_eq (i : S8x4096x2048.Idx) : idx_main_v6 (idx_main_v7 i) = ix1 (i 2) :=
  funext fun a => by match a with | ⟨0, _⟩ => rfl

/-- The offset vector, broadcast twice, is read at the column. -/
theorem offset_idx_eq (i : S8x4096x2048.Idx) : idx_main_v9 (idx_main_v10 i) = ix1 (i 2) :=
  funext fun a => by match a with | ⟨0, _⟩ => rfl

/-- The reference's last stage is the `plain` arrangement of its five arguments. -/
theorem ref_eq_plain (x0 : (⟨S8x4096x2048, .i32⟩ : BufTy).Contents (Elt Ideal)) (x1 : (⟨S8x2048x2048, .i32⟩ : BufTy).Contents (Elt Ideal))
    (x2 x3 x4 : (⟨S2048, .f32⟩ : BufTy).Contents (Elt Ideal)) :
    val_main_v11 (F := Ideal) x0 x1 x2 x3 x4 = Cert.Spec.plain x0 x1 x2 x3 x4 := by
  funext i
  rw [val_main_v11_apply, val_main_v8_apply, val_main_v5_apply, val_main_v2_apply, val_main_v4_apply, val_main_v3_apply,
    val_main_v7_apply, val_main_v6_apply, val_main_v10_apply, val_main_v9_apply]
  simp only [val_main_v0_apply, val_main_v1_apply, lidx_eq, ridx_eq, bias_idx_eq, scale_idx_eq, offset_idx_eq]
  rfl

end Cert.ReferenceIdeal.RefValue

end
-- ==== Proof.Finite.lean ====
/-
  From the precondition to real numbers.

  The precondition is the conjunction of three tests, one per float vector: every entry's absolute value is below
  the f32 word `0x7F800000`, which is `+∞`. An extended real whose absolute value `max x (-x)` is below `+∞` is
  neither `+∞` nor `-∞`, so it is a real number. The law joining the two programs needs this of the scale and of the
  bias.
-/
import proofs.«167757_j22265110462493_2_alg».proof.Pre_finite_inputs
import proofs.«167757_j22265110462493_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- The f32 word `0x7F800000` is `+∞`. -/
theorem inf_word : Ideal.ofBits .f32 0x7F800000#32 = (⊤ : EReal) := by simp [Ideal.ofBits, Ideal.ieee]

/-- An extended real whose absolute value is below `+∞` is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One test `all(|v| < +∞)` that came out true makes every entry of `v` a real number. -/
theorem all_real (v : FVec Ideal S2048 .f32)
    (h : Host.reduce IntOp.andi (cmpf .olt (Host.absf v) (broadcastInDim S2048 ![] Facts.bcast_S_S2048 (constant (F := Ideal) S_ .f32 0x7F800000#32)))
          (constantI S_ 1 1#1) Facts.reducesTo_S2048_S_d0 Facts.h_S_ ix0 = 1#1)
    (j : S2048.Idx) : ∃ r : ℝ, v j = (r : EReal) := by
  have e := Host.reduce_andi_all _ _ _ _ ix0 h j
  have e' : Ideal.cmp .olt (max (v j) (-(v j))) (Ideal.ofBits .f32 0x7F800000#32) = 1#1 := e
  have hlt : max (v j) (-(v j)) < (⊤ : EReal) := by
    by_contra hn
    rw [inf_word] at e'
    have h0 : Ideal.cmp .olt (max (v j) (-(v j))) (⊤ : EReal) = 0#1 := by simp [Ideal.cmp, hn]
    rw [h0] at e'
    exact absurd e' (by decide)
  exact real_of_abs_lt_top _ hlt

/-- Under the precondition every entry of the scale and of the bias is a real number. -/
theorem real_of_pre (x0 : IVec S8x4096x2048 32) (x1 : IVec S8x2048x2048 32) (scale offset bias : FVec Ideal S2048 .f32)
    (h : fn (F := Ideal) x0 x1 scale offset bias = fun _ => 1#1) :
    (∀ j, ∃ r : ℝ, scale j = (r : EReal)) ∧ (∀ j, ∃ r : ℝ, bias j = (r : EReal)) := by
  have h0 := congrFun h ix0
  dsimp only [fn] at h0
  obtain ⟨h12, h3⟩ := IntOp.andi_eq_one.1 h0
  obtain ⟨h1, h2⟩ := IntOp.andi_eq_one.1 h12
  exact ⟨all_real scale h1, all_real bias h3⟩

end Cert.Finite

end
-- ==== Proof.KernelPieces.lean ====
/-
  What one run of the kernel body leaves behind, as values of what it loaded, for any float instance.

  The body has two cases. At the first row tile of a (batch, column tile) pair it converts the staged block of the
  second tensor and stores the converted block into the carried scratch, then reads it straight back; at every other
  row tile it leaves the scratch as the previous point left it. In both cases the output block is one covering store
  of the same arithmetic term, taken of the first tensor's block, the scratch contents, and the two row vectors.
-/
import proofs.«167757_j22265110462493_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First row tile: the scratch ends holding the converted block of the second tensor. -/
theorem scratch_A (c : Dev nD) (i : grid0.Coords) (arg3 : Memref sig .tc .vmem S1x512x2048 .i32) (harg3 : arg3.IsWhole) (arg4 : Memref sig .tc .vmem S1x2048x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S2048x1024 .bf16) (harg8 : arg8.IsWhole) (hc0 : cond0_0 i) (x0 : Vec F S1x512x2048 .i32) (x1 : Vec F S1x2048x1024 .i32) (x2 : Vec F S1x1024 .f32) (x3 : Vec F S1x1024 .f32) :
    sout0_A_0 c i arg3 harg3 arg4 harg4 arg5 harg5 arg6 harg6 arg7 harg7 arg8 harg8 hc0 x0 x1 x2 x3 = k0_pay1 x1 := by
  unfold sout0_A_0
  rw [View.read_writes_eq_canon _ _ _ (scover0_A_0 c i arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg4.read_unread, View.ld_unit_zero (S := S1x2048x1024) hz3]

/-- First row tile: the output block is the body's term over the block just converted (read back from the scratch). -/
theorem out_A (c : Dev nD) (i : grid0.Coords) (arg3 : Memref sig .tc .vmem S1x512x2048 .i32) (harg3 : arg3.IsWhole) (arg4 : Memref sig .tc .vmem S1x2048x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S2048x1024 .bf16) (harg8 : arg8.IsWhole) (hc0 : cond0_0 i) (x0 : Vec F S1x512x2048 .i32) (x1 : Vec F S1x2048x1024 .i32) (x2 : Vec F S1x1024 .f32) (x3 : Vec F S1x1024 .f32) :
    out0_A_4 c i arg3 harg3 arg4 harg4 arg5 harg5 arg6 harg6 arg7 harg7 arg8 harg8 hc0 x0 x1 x2 x3 = k0_pay2 x0 (k0_pay1 x1) x2 x3 := by
  unfold out0_A_4
  rw [View.read_writes_eq_canon _ _ _ (cover0_A_4 c i arg3 harg3 arg4 harg4 arg5 harg5 arg6 harg6 arg7 harg7 arg8 harg8 hc0 x0 x1 x2 x3)]
  unfold kernelRun0_A
  dsimp only
  sl_unfold_words
  rw [View.canon_unit_zero hz3, View.readCov_unit_zero (S := S2048x1024) _ hz2]
  simp only [View.readAt_eq_ld, harg3.read_unread, harg4.read_unread, harg5.read_unread, harg6.read_unread,
    View.ld_unit_zero (S := S1x512x2048) hz3, View.ld_unit_zero (S := S1x2048x1024) hz3, View.ld_unit_zero (S := S1x1024) hz2]

/-- Any later row tile: the output block is the body's term over what the scratch already held. -/
theorem out_B (c : Dev nD) (i : grid0.Coords) (arg3 : Memref sig .tc .vmem S1x512x2048 .i32) (harg3 : arg3.IsWhole) (arg4 : Memref sig .tc .vmem S1x2048x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S2048x1024 .bf16) (harg8 : arg8.IsWhole) (hc0 : ¬cond0_0 i) (x0 : Vec F S1x512x2048 .i32) (x1 : Vec F S1x2048x1024 .i32) (x2 : Vec F S1x1024 .f32) (x3 : Vec F S1x1024 .f32) (xs0 : Vec F S2048x1024 .bf16) :
    out0_B_4 c i arg3 harg3 arg4 harg4 arg5 harg5 arg6 harg6 arg7 harg7 arg8 harg8 hc0 x0 x1 x2 x3 xs0 = k0_pay2 x0 xs0 x2 x3 := by
  unfold out0_B_4
  rw [View.read_writes_eq_canon _ _ _ (cover0_B_4 c i arg3 harg3 arg4 harg4 arg5 harg5 arg6 harg6 arg7 harg7 arg8 harg8 hc0 x0 x1 x2 x3 xs0)]
  unfold kernelRun0_B
  dsimp only
  rw [View.canon_unit_zero hz3]
  simp only [View.readAt_eq_ld, harg3.read_unread, harg8.read_unread, harg5.read_unread, harg6.read_unread,
    View.ld_unit_zero (S := S1x512x2048) hz3, View.ld_unit_zero (S := S2048x1024) hz2, View.ld_unit_zero (S := S1x1024) hz2]

end Cert.KernelIdeal.Pieces

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.Payload.lean ====
/-
  The body's two arithmetic terms read at one entry, over the extended reals.

  The converted block at `(k, n)` is the integer staged at `(0, k, n)`, read as a real. The output block at `(0, r, n)`
  is the contraction over `k` of the integers of row `r` of the first block with column `n` of the scratch, times the
  scale row at `n`, plus the fused-offset row at `n`: the matrix product starts from a zero accumulator and contracts one
  axis, the two row vectors are broadcast down the rows, and the unit leading axis is dropped on the way in and added
  on the way out.
-/
import proofs.«167757_j22265110462493_2_alg».proof.Proof.Gen.KernelIdeal.Skeleton
import proofs.«167757_j22265110462493_2_alg».proof.Proof.LibDotSingle
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The product's dimension numbers: rows of the left operand against columns of the right, one contracted axis. -/
abbrev D : DotDims S512x2048 S2048x1024 S512x1024 := dot_S512x2048_S2048x1024_S512x1024_1_0_0_1_n_n

theorem lhs0 (j : S512x1024.Idx) (q : D.contr.Idx) : (D.lhsIdx j q 0).val = (j 0).val := by
  unfold DotDims.lhsIdx
  rw [dif_neg (show ¬(0 : Fin S512x2048.rank) ∈ D.lhsBatch by decide), dif_pos (show (0 : Fin S512x2048.rank) ∈ D.lhsNonContracting by decide)]
  rfl
theorem lhs1 (j : S512x1024.Idx) (q : D.contr.Idx) : (D.lhsIdx j q 1).val = (q ⟨0, by decide⟩).val :=
  D.lhsIdx_val_of_single rfl j q
theorem rhs0 (j : S512x1024.Idx) (q : D.contr.Idx) : (D.rhsIdx j q 0).val = (q ⟨0, by decide⟩).val :=
  D.rhsIdx_val_of_single rfl j q
theorem rhs1 (j : S512x1024.Idx) (q : D.contr.Idx) : (D.rhsIdx j q 1).val = (j 1).val := by
  unfold DotDims.rhsIdx
  rw [dif_neg (show ¬(1 : Fin S2048x1024.rank) ∈ D.rhsBatch by decide), dif_pos (show (1 : Fin S2048x1024.rank) ∈ D.rhsNonContracting by decide)]
  rfl

/-- The product into a zero accumulator at `(r, n)`: row `r` of the left operand against column `n` of the right. -/
theorem product_apply (x : FVec Ideal S512x2048 .bf16) (w : FVec Ideal S2048x1024 .bf16) (r : Fin 512) (n : Fin 1024) :
    matmul D none x w (constant (F := Ideal) S512x1024 .f32 0x00000000#32) (ix2 r n) = ∑ k : Fin 2048, x (ix2 r k) * w (ix2 k n) :=
  Cert.LibDotSingle.matmul_zero_apply D 2048 rfl rfl none x w (ix2 r n) (fun k => ix2 r k) (fun k => ix2 k n)
    (fun k => funext fun a => Fin.ext (by
      have hk := contrEquiv1_symm_val D 2048 rfl rfl k
      match a with
      | ⟨0, _⟩ => exact lhs0 _ _
      | ⟨1, _⟩ => exact (lhs1 _ _).trans hk))
    (fun k => funext fun a => Fin.ext (by
      have hk := contrEquiv1_symm_val D 2048 rfl rfl k
      match a with
      | ⟨0, _⟩ => exact (rhs0 _ _).trans hk
      | ⟨1, _⟩ => exact rhs1 _ _))

/-- The converted block at `(k, n)` is the staged integer at `(0, k, n)`, as a real. -/
theorem converted_apply (v : Vec Ideal S1x2048x1024 .i32) (k : Fin 2048) (n : Fin 1024) :
    k0_pay1 (F := Ideal) v (ix2 k n) = (((v (ix3 (0 : Fin 1) k n)).toInt : ℝ) : EReal) := by
  unfold k0_pay1
  rw [shapeCast_self]
  show (((shapeCast S2048x1024 v shapeCasts_S1x2048x1024_S2048x1024 (ix2 k n)).toInt : ℝ) : EReal) = _
  rw [shapeCast_1ab_ab_apply]

/-- The output block at `(0, r, n)`. -/
theorem block_apply (v3 : Vec Ideal S1x512x2048 .i32) (v6 : FVec Ideal S2048x1024 .bf16) (v8 v12 : FVec Ideal S1x1024 .f32)
    (r : Fin 512) (n : Fin 1024) :
    k0_pay2 (F := Ideal) v3 v6 v8 v12 (ix3 (0 : Fin 1) r n)
      = (∑ k : Fin 2048, (((v3 (ix3 (0 : Fin 1) r k)).toInt : ℝ) : EReal) * v6 (ix2 k n)) * v8 (ix2 (0 : Fin 1) n)
        + v12 (ix2 (0 : Fin 1) n) := by
  unfold k0_pay2
  refine (shapeCast_ab_1ab_apply _ _ (0 : Fin 1) r n).trans ?_
  show matmul D none (sitofp .bf16 (shapeCast S512x2048 v3 shapeCasts_S1x512x2048_S512x2048)) v6
        (constant (F := Ideal) S512x1024 .f32 0x00000000#32) (ix2 r n)
      * broadcastTo S512x1024 (shapeCast S1x1024 v8 shapeCasts_S1x1024_S1x1024) broadcasts_S1x1024_S512x1024 (ix2 r n)
      + broadcastTo S512x1024 (shapeCast S1x1024 v12 shapeCasts_S1x1024_S1x1024) broadcasts_S1x1024_S512x1024 (ix2 r n) = _
  rw [product_apply, broadcastTo_1b_ab_apply, broadcastTo_1b_ab_apply, shapeCast_self, shapeCast_self]
  refine congrArg (fun s => s * v8 (ix2 (0 : Fin 1) n) + v12 (ix2 (0 : Fin 1) n)) ?_
  refine Finset.sum_congr rfl fun k _ => ?_
  show (((shapeCast S512x2048 v3 shapeCasts_S1x512x2048_S512x2048 (ix2 r k)).toInt : ℝ) : EReal) * _ = _
  rw [shapeCast_1ab_ab_apply]

end Cert.KernelIdeal.Payload

end
-- ==== Proof.BlockValue.lean ====
/-
  One output tile against the specification.

  Suppose the body's operands are tiles of the whole arrays: the first block holds rows `512·mt + r` of batch `b` of the
  first tensor, the scratch holds the converted columns `1024·nt + n` of batch `b` of the second tensor, and the two row
  vectors hold the scale and the fused offset `bias · scale + offset` at columns `1024·nt + n`. Then the body's output
  term at `(0, r, n)` is the fused arrangement of the specification at `(b, 512·mt + r, 1024·nt + n)`: the contraction
  runs over the same `k` on both sides, term by term.
-/
import proofs.«167757_j22265110462493_2_alg».proof.Proof.Payload
import proofs.«167757_j22265110462493_2_alg».proof.Proof.Spec

noncomputable section

open scoped BigOperators

namespace Cert.KernelIdeal.BlockValue

open Cert.KernelIdeal Cert.KernelIdeal.Gen Idealize.ShloMosaic Idealize.ShloMosaic.ValueIdx

/-- Row `r` of row tile `mt`. -/
abbrev row (mt : Fin 8) (r : Fin 512) : Fin 4096 := ⟨512 * mt.val + r.val, by have := mt.isLt; have := r.isLt; omega⟩
/-- Column `n` of column tile `nt`. -/
abbrev col (nt : Fin 2) (n : Fin 1024) : Fin 2048 := ⟨1024 * nt.val + n.val, by have := nt.isLt; have := n.isLt; omega⟩

theorem tile_eq_fused (x0 : Vec Ideal S1x512x2048 .i32) (xs : FVec Ideal S2048x1024 .bf16) (x2 x3 : FVec Ideal S1x1024 .f32)
    (X1 : S8x4096x2048.Idx → BitVec 32) (X2 : S8x2048x2048.Idx → BitVec 32) (scale offset bias : S2048.Idx → EReal)
    (b : Fin 8) (mt : Fin 8) (nt : Fin 2)
    (h0 : ∀ (r : Fin 512) (k : Fin 2048), x0 (ix3 (0 : Fin 1) r k) = X1 (ix3 b (row mt r) k))
    (hs : ∀ (k : Fin 2048) (n : Fin 1024), xs (ix2 k n) = (((X2 (ix3 b k (col nt n))).toInt : ℝ) : EReal))
    (h2 : ∀ n : Fin 1024, x2 (ix2 (0 : Fin 1) n) = scale (ix1 (col nt n)))
    (h3 : ∀ n : Fin 1024, x3 (ix2 (0 : Fin 1) n) = bias (ix1 (col nt n)) * scale (ix1 (col nt n)) + offset (ix1 (col nt n)))
    (r : Fin 512) (n : Fin 1024) :
    k0_pay2 (F := Ideal) x0 xs x2 x3 (ix3 (0 : Fin 1) r n)
      = Cert.Spec.fused X1 X2 scale offset bias (ix3 b (row mt r) (col nt n)) := by
  rw [Cert.KernelIdeal.Payload.block_apply, h2, h3]
  unfold Cert.Spec.fused Cert.Spec.dot
  simp only [h0, hs]

end Cert.KernelIdeal.BlockValue

end
-- ==== Proof.KernelRun.lean ====
/-
  What the kernel's result array holds after the whole run.

  The grid has 128 points; point `t` works on batch `t / 16`, column tile `(t / 8) % 2` and row tile `t % 8`, the row tile
  moving fastest. At a point the four input blocks are tiles of the arrays the region finds: rows `512·(t % 8) + r` of
  batch `t / 16` of the first tensor, columns `1024·((t / 8) % 2) + n` of batch `t / 16` of the second tensor, and the same
  columns of the reshaped scale and of the reshaped fused offset `bias · scale + offset`, which two host operations
  computed before the region.

  The carried scratch is filled at the first row tile of each (batch, column tile) pair with the converted block of the
  second tensor and kept through the seven row tiles that follow, during which neither the batch nor the column tile of
  the point changes. So after every point it holds the converted columns of the point's own batch and column tile: an
  induction on the point. Hence every point writes back the tile of the fused arrangement of the specification that its
  output block addresses, and the 128 output blocks tile the result array.
-/
import proofs.«167757_j22265110462493_2_alg».proof.Proof.Gen.KernelIdeal.Value
import proofs.«167757_j22265110462493_2_alg».proof.Proof.KernelPieces
import proofs.«167757_j22265110462493_2_alg».proof.Proof.BlockValue
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.KernelIdeal.KRun

open Cert.KernelIdeal Cert.KernelIdeal.Gen Idealize.ShloMosaic.ValueIdx Cert.KernelIdeal.BlockValue

variable (m : (ℓ : Loc nD τ sig) → Buf (Elt Ideal) ℓ) (ρ : Dev nD → PrngReg)

/-! ## The grid -/

/-- Where each window's block sits at point `t`: batch `t / 16`, row tile `t % 8`, column tile `(t / 8) % 2`. -/
theorem idx_facts : ∀ t : Fin cfg0.N,
    win0_0.index t (0 : Fin 3) = t.val / 16 ∧ win0_0.index t (1 : Fin 3) = t.val % 8 ∧ win0_0.index t (2 : Fin 3) = 0
    ∧ win0_1.index t (0 : Fin 3) = t.val / 16 ∧ win0_1.index t (1 : Fin 3) = 0 ∧ win0_1.index t (2 : Fin 3) = t.val / 8 % 2
    ∧ win0_2.index t (0 : Fin 2) = 0 ∧ win0_2.index t (1 : Fin 2) = t.val / 8 % 2
    ∧ win0_3.index t (0 : Fin 2) = 0 ∧ win0_3.index t (1 : Fin 2) = t.val / 8 % 2
    ∧ win0_4.index t (0 : Fin 3) = t.val / 16 ∧ win0_4.index t (1 : Fin 3) = t.val % 8 ∧ win0_4.index t (2 : Fin 3) = t.val / 8 % 2 :=
  (by decide +kernel : ∀ t : Fin grid0.N, _)

theorem lt128 (t : Fin cfg0.N) : t.val < 128 := lt_of_lt_of_eq t.isLt N_0

/-- The batch of point `t`. -/
abbrev bt (t : Fin cfg0.N) : Fin 8 := ⟨t.val / 16, by have := lt128 t; omega⟩
/-- The row tile of point `t`. -/
abbrev mt (t : Fin cfg0.N) : Fin 8 := ⟨t.val % 8, by omega⟩
/-- The column tile of point `t`. -/
abbrev nt (t : Fin cfg0.N) : Fin 2 := ⟨t.val / 8 % 2, by omega⟩

/-! ## The five argument arrays, as launched -/

/-- The first integer tensor. -/
abbrev argX1 (c : Dev nD) : IVec S8x4096x2048 32 := m ((c : Thread nD τ).loc main_arg0)
/-- The second integer tensor. -/
abbrev argX2 (c : Dev nD) : IVec S8x2048x2048 32 := m ((c : Thread nD τ).loc main_arg1)
/-- The scale vector. -/
abbrev argScale (c : Dev nD) : FVec Ideal S2048 .f32 := m ((c : Thread nD τ).loc main_arg2)
/-- The offset vector. -/
abbrev argOffset (c : Dev nD) : FVec Ideal S2048 .f32 := m ((c : Thread nD τ).loc main_arg3)
/-- The bias vector. -/
abbrev argBias (c : Dev nD) : FVec Ideal S2048 .f32 := m ((c : Thread nD τ).loc main_arg4)

/-! ## The arrays the two host operations wrote before the region -/

/-- The third window's array is the scale vector with a unit row axis added. -/
theorem V_scale (c : Dev nD) :
    (V m c main_v3 : (⟨S1x2048, .f32⟩ : BufTy).Contents (Elt Ideal))
      = shapeCast S1x2048 (argScale m c) shapeCasts_S2048_S1x2048 := by
  dsimp only [Gen.V, Gen.hostOps0]; after_results; rfl

/-- The fourth window's array is `bias · scale + offset` with a unit row axis added. -/
theorem V_fused (c : Dev nD) :
    (V m c main_v2 : (⟨S1x2048, .f32⟩ : BufTy).Contents (Elt Ideal))
      = shapeCast S1x2048 (addf (mulf (argBias m c) (argScale m c)) (argOffset m c)) shapeCasts_S2048_S1x2048 := by
  dsimp only [Gen.V, Gen.hostOps0]; after_results; rfl

/-! ## The input blocks are tiles of the arrays -/

/-- The first window's block holds rows `512·(t % 8) + r` of batch `t / 16` of the first tensor. -/
theorem blk0 (c : Dev nD) (t : Fin cfg0.N) (r : Fin 512) (k : Fin 2048) :
    (iblk m c 0 t : Vec Ideal S1x512x2048 .i32) (ix3 (0 : Fin 1) r k)
      = argX1 m c (ix3 (bt t) (row (mt t) r) k) := by
  obtain ⟨e0, e1, e2, -⟩ := idx_facts t
  unfold iblk
  rw [View.read_apply]
  show V m c main_arg0 (((cfg0.win 0).blk t).view.emb (ix3 (0 : Fin 1) r k)) = _
  rw [V_main_arg0]
  refine congrArg _ (funext fun a => Fin.ext ?_)
  match a with
  | ⟨0, _⟩ => show win0_0.index t (0 : Fin 3) * 1 + 1 * 0 = t.val / 16; omega
  | ⟨1, _⟩ => show win0_0.index t (1 : Fin 3) * 512 + 1 * r.val = 512 * (t.val % 8) + r.val; omega
  | ⟨2, _⟩ => show win0_0.index t (2 : Fin 3) * 2048 + 1 * k.val = k.val; omega

/-- The second window's block holds columns `1024·((t / 8) % 2) + n` of batch `t / 16` of the second tensor. -/
theorem blk1 (c : Dev nD) (t : Fin cfg0.N) (k : Fin 2048) (n : Fin 1024) :
    (iblk m c 1 t : Vec Ideal S1x2048x1024 .i32) (ix3 (0 : Fin 1) k n)
      = argX2 m c (ix3 (bt t) k (col (nt t) n)) := by
  obtain ⟨-, -, -, e0, e1, e2, -⟩ := idx_facts t
  unfold iblk
  rw [View.read_apply]
  show V m c main_arg1 (((cfg0.win 1).blk t).view.emb (ix3 (0 : Fin 1) k n)) = _
  rw [V_main_arg1]
  refine congrArg _ (funext fun a => Fin.ext ?_)
  match a with
  | ⟨0, _⟩ => show win0_1.index t (0 : Fin 3) * 1 + 1 * 0 = t.val / 16; omega
  | ⟨1, _⟩ => show win0_1.index t (1 : Fin 3) * 2048 + 1 * k.val = k.val; omega
  | ⟨2, _⟩ => show win0_1.index t (2 : Fin 3) * 1024 + 1 * n.val = 1024 * (t.val / 8 % 2) + n.val; omega

/-- The third window's block holds the scale at columns `1024·((t / 8) % 2) + n`. -/
theorem blk2 (c : Dev nD) (t : Fin cfg0.N) (n : Fin 1024) :
    (iblk m c 2 t : FVec Ideal S1x1024 .f32) (ix2 (0 : Fin 1) n)
      = argScale m c (ix1 (col (nt t) n)) := by
  obtain ⟨-, -, -, -, -, -, e0, e1, -⟩ := idx_facts t
  unfold iblk
  rw [View.read_apply]
  show V m c main_v3 (((cfg0.win 2).blk t).view.emb (ix2 (0 : Fin 1) n)) = _
  have he : ((cfg0.win 2).blk t).view.emb (ix2 (0 : Fin 1) n) = ix2 (0 : Fin 1) (col (nt t) n) :=
    funext fun a => Fin.ext (by
      match a with
      | ⟨0, _⟩ => show win0_2.index t (0 : Fin 2) * 1 + 1 * 0 = 0; omega
      | ⟨1, _⟩ => show win0_2.index t (1 : Fin 2) * 1024 + 1 * n.val = 1024 * (t.val / 8 % 2) + n.val; omega)
  rw [he, V_scale, shapeCast_a_1a_apply]

/-- The fourth window's block holds `bias · scale + offset` at columns `1024·((t / 8) % 2) + n`. -/
theorem blk3 (c : Dev nD) (t : Fin cfg0.N) (n : Fin 1024) :
    (iblk m c 3 t : FVec Ideal S1x1024 .f32) (ix2 (0 : Fin 1) n)
      = ((argBias m c (ix1 (col (nt t) n)) : EReal) * (argScale m c (ix1 (col (nt t) n)) : EReal)
          + (argOffset m c (ix1 (col (nt t) n)) : EReal) : EReal) := by
  obtain ⟨-, -, -, -, -, -, -, -, e0, e1, -⟩ := idx_facts t
  unfold iblk
  rw [View.read_apply]
  show V m c main_v2 (((cfg0.win 3).blk t).view.emb (ix2 (0 : Fin 1) n)) = _
  have he : ((cfg0.win 3).blk t).view.emb (ix2 (0 : Fin 1) n) = ix2 (0 : Fin 1) (col (nt t) n) :=
    funext fun a => Fin.ext (by
      match a with
      | ⟨0, _⟩ => show win0_3.index t (0 : Fin 2) * 1 + 1 * 0 = 0; omega
      | ⟨1, _⟩ => show win0_3.index t (1 : Fin 2) * 1024 + 1 * n.val = 1024 * (t.val / 8 % 2) + n.val; omega)
  rw [he, V_fused, shapeCast_a_1a_apply]
  rfl

/-! ## The carried scratch -/

/-- An integer of the second tensor read as a real number: what the conversion to the matrix unit's format gives. -/
abbrev conv (c : Dev nD) (b : Fin 8) (k : Fin 2048) (n : Fin 2048) : EReal :=
  (((argX2 m c (ix3 b k n)).toInt : ℝ) : EReal)

/-- At the first row tile of a pair the scratch is filled with the converted block of the second tensor. -/
theorem scratch_fill (c : Dev nD) (t : Fin cfg0.N) (h0 : t.val % 8 = 0) (k : Fin 2048) (j : Fin 1024) :
    (outsAt0 m c t.val t.isLt).2 (ix2 k j) = conv m c (bt t) k (col (nt t) j) := by
  rw [outsAt0_A m c t h0]
  dsimp only
  refine (congrFun (Cert.KernelIdeal.Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) (ix2 k j)).trans ?_
  refine (Cert.KernelIdeal.Payload.converted_apply (iblk m c 1 t) k j).trans ?_
  exact congrArg (fun v : BitVec 32 => ((v.toInt : ℝ) : EReal)) (blk1 m c t k j)

/-- At every other row tile the scratch is what the point before left. -/
theorem scratch_keep (c : Dev nD) (t : Fin cfg0.N) (h0 : ¬t.val % 8 = 0) :
    (outsAt0 m c t.val t.isLt).2 = (outsAt0 m c (t.val - 1) (Nat.lt_of_le_of_lt (Nat.sub_le _ _) t.isLt)).2 :=
  (congrArg Prod.snd (outsAt0_B m c t h0)).trans rfl

/-- After every point the scratch holds the converted columns of the point's own batch and column tile: filled at the
    first row tile, and from one row tile to the next of the same pair neither the batch nor the column tile moves. -/
theorem scratch_after (c : Dev nD) : ∀ (n : ℕ) (hn : n < cfg0.N) (k : Fin 2048) (j : Fin 1024),
    (outsAt0 m c n hn).2 (ix2 k j) = conv m c (bt ⟨n, hn⟩) k (col (nt ⟨n, hn⟩) j)
  | 0, hn, k, j => scratch_fill m c ⟨0, hn⟩ (Nat.zero_mod _) k j
  | n + 1, hn, k, j => by
    by_cases h0 : (n + 1) % 8 = 0
    · exact scratch_fill m c ⟨n + 1, hn⟩ h0 k j
    · have hk : (outsAt0 m c (n + 1) hn).2 = (outsAt0 m c n (Nat.lt_of_succ_lt hn)).2 := scratch_keep m c ⟨n + 1, hn⟩ h0
      have hb : bt ⟨n, Nat.lt_of_succ_lt hn⟩ = bt ⟨n + 1, hn⟩ := Fin.ext (by show n / 16 = (n + 1) / 16; omega)
      have hc : nt ⟨n, Nat.lt_of_succ_lt hn⟩ = nt ⟨n + 1, hn⟩ := Fin.ext (by show n / 8 % 2 = (n + 1) / 8 % 2; omega)
      rw [hk, scratch_after c n (Nat.lt_of_succ_lt hn) k j, hb, hc]

/-- So a point that is not a first row tile finds in the scratch the converted columns of its own batch and column tile. -/
theorem scratch_before (c : Dev nD) (t : Fin cfg0.N) (h0 : ¬t.val % 8 = 0) (k : Fin 2048) (j : Fin 1024) :
    (outsAt0 m c (t.val - 1) (Nat.lt_of_le_of_lt (Nat.sub_le _ _) t.isLt)).2 (ix2 k j) = conv m c (bt t) k (col (nt t) j) := by
  have hlt : t.val - 1 < cfg0.N := Nat.lt_of_le_of_lt (Nat.sub_le _ _) t.isLt
  have hb : bt ⟨t.val - 1, hlt⟩ = bt t := Fin.ext (by show (t.val - 1) / 16 = t.val / 16; omega)
  have hc : nt ⟨t.val - 1, hlt⟩ = nt t := Fin.ext (by show (t.val - 1) / 8 % 2 = t.val / 8 % 2; omega)
  rw [scratch_after m c (t.val - 1) hlt k j, hb, hc]

/-! ## What each point writes back -/

/-- The result: the fused arrangement of the specification, of the five argument arrays as launched. -/
abbrev result (c : Dev nD) : S8x4096x2048.Idx → EReal :=
  Cert.Spec.fused (argX1 m c) (argX2 m c) (argScale m c) (argOffset m c) (argBias m c)

/-- Entry `(0, r, n)` of point `t`'s output block is entry `(t / 16, 512·(t % 8) + r, 1024·((t / 8) % 2) + n)` of the array. -/
theorem tile_emb (t : Fin cfg0.N) (r : Fin 512) (n : Fin 1024) :
    ((cfg0.win 4).blk t).view.emb (ix3 (0 : Fin 1) r n) = ix3 (bt t) (row (mt t) r) (col (nt t) n) := by
  obtain ⟨-, -, -, -, -, -, -, -, -, -, e0, e1, e2⟩ := idx_facts t
  refine funext fun a => Fin.ext ?_
  match a with
  | ⟨0, _⟩ => show win0_4.index t (0 : Fin 3) * 1 + 1 * 0 = t.val / 16; omega
  | ⟨1, _⟩ => show win0_4.index t (1 : Fin 3) * 512 + 1 * r.val = 512 * (t.val % 8) + r.val; omega
  | ⟨2, _⟩ => show win0_4.index t (2 : Fin 3) * 1024 + 1 * n.val = 1024 * (t.val / 8 % 2) + n.val; omega

/-- The body's output term, over a scratch holding the converted columns of the point's pair, is the point's tile of the result. -/
theorem tile_written (c : Dev nD) (t : Fin cfg0.N) (xs : FVec Ideal S2048x1024 .bf16)
    (hxs : ∀ (k : Fin 2048) (j : Fin 1024), xs (ix2 k j) = conv m c (bt t) k (col (nt t) j)) :
    (cfg0.win 4).cut (grid0.coords t) (k0_pay2 (F := Ideal) (iblk m c 0 t) xs (iblk m c 2 t) (iblk m c 3 t))
      = ((cfg0.win 4).blk t).view.read (Elt Ideal) (result m c) := by
  refine funext fun (y : S1x512x1024.Idx) => ?_
  obtain ⟨z, r, n, rfl⟩ : ∃ (z : Fin 1) (r : Fin 512) (n : Fin 1024), y = ix3 z r n := ⟨y 0, y 1, y 2, eq_ix3 y⟩
  obtain rfl : z = 0 := Subsingleton.elim _ _
  rw [View.read_apply]
  show k0_pay2 (F := Ideal) (iblk m c 0 t) xs (iblk m c 2 t) (iblk m c 3 t) (ix3 (0 : Fin 1) r n)
    = result m c (((cfg0.win 4).blk t).view.emb (ix3 (0 : Fin 1) r n))
  rw [tile_emb]
  exact tile_eq_fused (iblk m c 0 t) xs (iblk m c 2 t) (iblk m c 3 t) (argX1 m c) (argX2 m c) (argScale m c) (argOffset m c)
    (argBias m c) (bt t) (mt t) (nt t) (fun r k => blk0 m c t r k) hxs (fun n => blk2 m c t n) (fun n => blk3 m c t n) r n

/-- What point `t` writes back is block `t` of the result. -/
theorem flushed_eq (c : Dev nD) (t : Fin cfg0.N) :
    (dats m 0 c).flushed 4 t = ((cfg0.win 4).blk t).view.read (Elt Ideal) (result m c) := by
  by_cases h0 : t.val % 8 = 0
  · rw [Cert.KernelIdeal.Value.flushed4_A m c t h0]
    refine (congrArg ((cfg0.win 4).cut (grid0.coords t)) (Cert.KernelIdeal.Pieces.out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t))).trans ?_
    exact tile_written m c t _ fun k j =>
      (Cert.KernelIdeal.Payload.converted_apply (iblk m c 1 t) k j).trans
        (congrArg (fun v : BitVec 32 => ((v.toInt : ℝ) : EReal)) (blk1 m c t k j))
  · rw [Cert.KernelIdeal.Value.flushed4_B m c t h0]
    refine (congrArg ((cfg0.win 4).cut (grid0.coords t)) (Cert.KernelIdeal.Pieces.out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2)).trans ?_
    exact tile_written m c t _ (scratch_before m c t h0)

/-! ## The 128 output blocks tile the array -/

/-- An index of the array is in point `t`'s block iff each coordinate is in the block's range on its axis. -/
theorem mem_blk (t : Fin cfg0.N) (i : S8x4096x2048.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v4).slice (win0_4.rect t)).set ↔ _
  rw [View.set_slice_whole, Rect.mem_set_unit]
  exact Iff.rfl

/-- Entry `(b, r, n)` of the array is written by the point of batch `b`, column tile `n / 1024` and row tile `r / 512`. -/
theorem cover (i : S8x4096x2048.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 2048 := (i 2).isLt
  obtain ⟨t, ht⟩ : ∃ t : Fin cfg0.N, t.val = 16 * (i 0).val + 8 * ((i 2).val / 1024) + (i 1).val / 512 :=
    ⟨⟨16 * (i 0).val + 8 * ((i 2).val / 1024) + (i 1).val / 512, lt_of_lt_of_eq (by omega) N_0.symm⟩, rfl⟩
  obtain ⟨-, -, -, -, -, -, -, -, -, -, e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- The result array after the run is the fused arrangement of the argument arrays. -/
theorem final (c : Dev nD) : (dats m 0 c).arrAt 4 cfg0.N = result m c :=
  (dats m 0 c).arrAt_eq_of_cover 4 (result m c) (fun t _ => flushed_eq m c t) cover

/-! ## The run -/

/-- Every weakly fair execution of the kernel, read over the extended reals, terminates with the result array at the fused arrangement of the
    argument arrays and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.KRun

end
-- ==== Proof.lean ====
/-
  A batched product of two integer tensors, scaled and shifted per column: the kernel against its reference, over the
  extended reals.

  For a batch `b`, a row `r` and a column `n` let `d = ∑ k, x1[b, r, k] · x2[b, k, n]`, every integer read as the real
  number it is (the conversion of an integer to a float is exact over the extended reals, whatever the float format).
  The reference computes `(d + bias[n]) · scale[n] + offset[n]`. The kernel computes `d · scale[n] + f[n]` where the
  vector `f = bias · scale + offset` is formed once, by two host operations, before the launch.

  The kernel walks a grid of 8 batches × 2 column tiles × 8 row tiles, the row tile moving fastest. At the first row tile
  of each (batch, column tile) pair it converts the staged block of the second tensor into a scratch that it keeps for
  the seven row tiles that follow; at every point it multiplies the block of the first tensor into that scratch, from a
  zero accumulator, scales by the scale row and adds the `f` row. By induction on the point the scratch always holds the
  converted columns of the point's own pair (Proof/KernelRun.lean), so each point writes back its tile of
  `d · scale + f`, and the 128 output blocks tile the result array.

  The two arrangements agree where `scale[n]` and `bias[n]` are real numbers: `d` is a finite sum of products of reals,
  hence real, and on the reals multiplication distributes over addition; `offset[n]` only takes part in an
  associativity step, which holds for every extended real (Proof/Spec.lean). That scale and bias are real is what the
  precondition gives (Proof/Finite.lean). The idealization rewrote nothing in the kernel, so there is nothing to preserve.
-/
import proofs.«167757_j22265110462493_2_alg».proof.Defs
import proofs.«167757_j22265110462493_2_alg».proof.Proof.Gen.Kernel
import proofs.«167757_j22265110462493_2_alg».proof.Proof.Gen.Kernel.Skeleton
import proofs.«167757_j22265110462493_2_alg».proof.Proof.Gen.Kernel.Launch
import proofs.«167757_j22265110462493_2_alg».proof.Proof.Gen.Kernel.Points
import proofs.«167757_j22265110462493_2_alg».proof.Proof.Gen.Kernel.Frame
import proofs.«167757_j22265110462493_2_alg».proof.Proof.Gen.KernelIdeal
import proofs.«167757_j22265110462493_2_alg».proof.Proof.Gen.KernelIdeal.Skeleton
import proofs.«167757_j22265110462493_2_alg».proof.Proof.Gen.KernelIdeal.Launch
import proofs.«167757_j22265110462493_2_alg».proof.Proof.Gen.KernelIdeal.Points
import proofs.«167757_j22265110462493_2_alg».proof.Proof.Gen.KernelIdeal.Frame
import proofs.«167757_j22265110462493_2_alg».proof.Proof.Gen.ReferenceIdeal
import proofs.«167757_j22265110462493_2_alg».proof.Proof.Gen.Pre_finite_inputs
import proofs.«167757_j22265110462493_2_alg».proof.Proof.Gen.KernelIdeal.Value
import proofs.«167757_j22265110462493_2_alg».proof.Proof.Gen.ReferenceIdeal.Run
import proofs.«167757_j22265110462493_2_alg».proof.Proof.Gen.ReferenceIdeal.Read
import proofs.«167757_j22265110462493_2_alg».proof.Proof.Spec
import proofs.«167757_j22265110462493_2_alg».proof.Proof.RefSide
import proofs.«167757_j22265110462493_2_alg».proof.Proof.Finite
import proofs.«167757_j22265110462493_2_alg».proof.Proof.KernelRun
import Idealize.ShloMosaic.Adequacy
import Idealize.ShloMosaic.Init

noncomputable section

namespace Cert.Proof

open Idealize.ShloMosaic Idealize.SL.Sem

/-- The kernel, word by word: every execution ends, without a fault, its arguments unchanged. -/
theorem frame_kernel : Cert.frame_Kernel := fun m ρ _ => Cert.Kernel.Gen.frame m ρ

/-- The same of the kernel read over the extended reals. -/
theorem frame_kernelIdeal : Cert.frame_KernelIdeal := fun m ρ _ => Cert.KernelIdeal.Gen.frame m ρ

/-- The reference is a straight line of host operations; its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the five arguments, both programs end with the same result array: the kernel's is
    `d · scale + (bias · scale + offset)` entry by entry, the reference's is `(d + bias) · scale + offset`, and the two are
    equal because the precondition makes scale and bias real. -/
theorem algebraic : Cert.algebraic_KernelIdeal_ReferenceIdeal := by
  intro m ρ m' ρ' hpre hagree
  refine ⟨fun c => Cert.KernelIdeal.KRun.result m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨hs, hb⟩ := Cert.Finite.real_of_pre _ _ _ _ _ (hpre c)
  rw [(hagree c).1, (hagree c).2.1, (hagree c).2.2.1, (hagree c).2.2.2.1, (hagree c).2.2.2.2,
    Cert.ReferenceIdeal.Read.val_main_v11_eq, Cert.ReferenceIdeal.RefValue.ref_eq_plain]
  exact Cert.Spec.plain_eq_fused _ _ _ _ _ hs hb

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
